-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x96 : Shape := ⟨2, ![16, 96]⟩
abbrev S4096x768 : Shape := ⟨2, ![4096, 768]⟩
abbrev S100000x1 : Shape := ⟨2, ![100000, 1]⟩
abbrev S4096x4096 : Shape := ⟨2, ![4096, 4096]⟩
abbrev S1 : Shape := ⟨1, ![1]⟩
abbrev S768x768 : Shape := ⟨2, ![768, 768]⟩
abbrev S768 : Shape := ⟨1, ![768]⟩
abbrev S_ : Shape := ⟨0, ![]⟩

class Facts : Prop where
  bcast_S_S4096x768 : S_.BroadcastsInDim S4096x768 (![] : Fin 0 → Fin S4096x768.rank)
  reducesTo_S4096x768_S_d0_1 : S4096x768.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1 : S_.BroadcastsInDim S1 (![] : Fin 0 → Fin S1.rank)
  reducesTo_S1_S_d0 : S1.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg6
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : IVec S16x96 32) (main_arg1 : FVec F S4096x768 .f32) (main_arg2 : FVec F S100000x1 .f32) (main_arg3 : IVec S4096x4096 32) (main_arg4 : FVec F S1 .f32) (main_arg5 : FVec F S768x768 .f32) (main_arg6 : FVec F S768 .f32) : IVec S_ 1 :=
  let main_v0 : FVec F S4096x768 .f32 := Host.absf main_arg1
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_c : IVec S_ 1 := constantI S_ 1 1#1
  let main_v3 : IVec S_ 1 := (fun x v => Host.reduce IntOp.andi x v reducesTo_S4096x768_S_d0_1 h_S_) main_v2 main_c
  let main_v4 : FVec F S100000x1 .f32 := Host.absf main_arg2
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S768x768 .f32 := Host.absf main_arg5
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg6 main_v13 main_v16
-- ==== Kernel.lean ====
abbrev S16x96 : Shape := ⟨2, ![16, 96]⟩
abbrev S4096x768 : Shape := ⟨2, ![4096, 768]⟩
abbrev S100000x1 : Shape := ⟨2, ![100000, 1]⟩
abbrev S4096x4096 : Shape := ⟨2, ![4096, 4096]⟩
abbrev S1 : Shape := ⟨1, ![1]⟩
abbrev S768x768 : Shape := ⟨2, ![768, 768]⟩
abbrev S768 : Shape := ⟨1, ![768]⟩
abbrev S_ : Shape := ⟨0, ![]⟩
abbrev S16x96x1 : Shape := ⟨3, ![16, 96, 1]⟩
abbrev S16x96x768 : Shape := ⟨3, ![16, 96, 768]⟩
abbrev S16x1x96 : Shape := ⟨3, ![16, 1, 96]⟩
abbrev S16x96x96 : Shape := ⟨3, ![16, 96, 96]⟩
abbrev S16x96x96x1 : Shape := ⟨4, ![16, 96, 96, 1]⟩
abbrev S16x96x96x2 : Shape := ⟨4, ![16, 96, 96, 2]⟩
abbrev S1x16x768 : Shape := ⟨3, ![1, 16, 768]⟩
abbrev S1x16x96 : Shape := ⟨3, ![1, 16, 96]⟩
abbrev S1x96x768 : Shape := ⟨3, ![1, 96, 768]⟩
abbrev S96x768 : Shape := ⟨2, ![96, 768]⟩
abbrev S16x768 : Shape := ⟨2, ![16, 768]⟩
abbrev S16x1x768 : Shape := ⟨3, ![16, 1, 768]⟩
abbrev S1x768 : Shape := ⟨2, ![1, 768]⟩

abbrev nBuf : Space → Nat
  | .hbm => 79
  | .vmem => 7
  | .smem => 0
  | _ => 0

abbrev bufTy : (tb : Table) → Fin (tcTables nBuf tb) → BufTy
  | .hbm, ⟨0, _⟩ => ⟨S16x96, .i32⟩
  | .hbm, ⟨1, _⟩ => ⟨S4096x768, .f32⟩
  | .hbm, ⟨2, _⟩ => ⟨S100000x1, .f32⟩
  | .hbm, ⟨3, _⟩ => ⟨S4096x4096, .i32⟩
  | .hbm, ⟨4, _⟩ => ⟨S1, .f32⟩
  | .hbm, ⟨5, _⟩ => ⟨S768x768, .f32⟩
  | .hbm, ⟨6, _⟩ => ⟨S768, .f32⟩
  | .hbm, ⟨7, _⟩ => ⟨S_, .i32⟩
  | .hbm, ⟨8, _⟩ => ⟨S16x96, .i32⟩
  | .hbm, ⟨9, _⟩ => ⟨S16x96, .i1⟩
  | .hbm, ⟨10, _⟩ => ⟨S_, .i32⟩
  | .hbm, ⟨11, _⟩ => ⟨S16x96, .i32⟩
  | .hbm, ⟨12, _⟩ => ⟨S16x96, .i32⟩
  | .hbm, ⟨13, _⟩ => ⟨S16x96, .i32⟩
  | .hbm, ⟨14, _⟩ => ⟨S16x96x1, .i32⟩
  | .hbm, ⟨15, _⟩ => ⟨S16x96x768, .f32⟩
  | .hbm, ⟨16, _⟩ => ⟨S16x96x1, .i32⟩
  | .hbm, ⟨17, _⟩ => ⟨S16x1x96, .i32⟩
  | .hbm, ⟨18, _⟩ => ⟨S_, .i32⟩
  | .hbm, ⟨19, _⟩ => ⟨S16x96x1, .i32⟩
  | .hbm, ⟨20, _⟩ => ⟨S16x96x1, .i1⟩
  | .hbm, ⟨21, _⟩ => ⟨S_, .i32⟩
  | .hbm, ⟨22, _⟩ => ⟨S16x96x1, .i32⟩
  | .hbm, ⟨23, _⟩ => ⟨S16x96x1, .i32⟩
  | .hbm, ⟨24, _⟩ => ⟨S16x96x1, .i32⟩
  | .hbm, ⟨25, _⟩ => ⟨S_, .i32⟩
  | .hbm, ⟨26, _⟩ => ⟨S16x1x96, .i32⟩
  | .hbm, ⟨27, _⟩ => ⟨S16x1x96, .i1⟩
  | .hbm, ⟨28, _⟩ => ⟨S_, .i32⟩
  | .hbm, ⟨29, _⟩ => ⟨S16x1x96, .i32⟩
  | .hbm, ⟨30, _⟩ => ⟨S16x1x96, .i32⟩
  | .hbm, ⟨31, _⟩ => ⟨S16x1x96, .i32⟩
  | .hbm, ⟨32, _⟩ => ⟨S16x96x96, .i32⟩
  | .hbm, ⟨33, _⟩ => ⟨S16x96x96, .i32⟩
  | .hbm, ⟨34, _⟩ => ⟨S16x96x96x1, .i32⟩
  | .hbm, ⟨35, _⟩ => ⟨S16x96x96x1, .i32⟩
  | .hbm, ⟨36, _⟩ => ⟨S16x96x96x2, .i32⟩
  | .hbm, ⟨37, _⟩ => ⟨S16x96x96, .i32⟩
  | .hbm, ⟨38, _⟩ => ⟨S_, .i32⟩
  | .hbm, ⟨39, _⟩ => ⟨S16x96x96, .i32⟩
  | .hbm, ⟨40, _⟩ => ⟨S16x96x96, .i1⟩
  | .hbm, ⟨41, _⟩ => ⟨S_, .i32⟩
  | .hbm, ⟨42, _⟩ => ⟨S16x96x96, .i32⟩
  | .hbm, ⟨43, _⟩ => ⟨S16x96x96, .i32⟩
  | .hbm, ⟨44, _⟩ => ⟨S16x96x96, .i32⟩
  | .hbm, ⟨45, _⟩ => ⟨S_, .i32⟩
  | .hbm, ⟨46, _⟩ => ⟨S16x96x96, .i32⟩
  | .hbm, ⟨47, _⟩ => ⟨S16x96x96, .i32⟩
  | .hbm, ⟨48, _⟩ => ⟨S16x96x96x1, .i32⟩
  | .hbm, ⟨49, _⟩ => ⟨S16x96x96x1, .i32⟩
  | .hbm, ⟨50, _⟩ => ⟨S16x96x96x2, .i32⟩
  | .hbm, ⟨51, _⟩ => ⟨S16x96x96, .f32⟩
  | .hbm, ⟨52, _⟩ => ⟨S16x96x768, .f32⟩
  | .hbm, ⟨53, _⟩ => ⟨S_, .f32⟩
  | .hbm, ⟨54, _⟩ => ⟨S16x96x768, .f32⟩
  | .hbm, ⟨55, _⟩ => ⟨S16x96x768, .f32⟩
  | .hbm, ⟨56, _⟩ => ⟨S_, .f32⟩
  | .hbm, ⟨57, _⟩ => ⟨S_, .f32⟩
  | .hbm, ⟨58, _⟩ => ⟨S16x96x768, .f32⟩
  | .hbm, ⟨59, _⟩ => ⟨S16x96x768, .f32⟩
  | .hbm, ⟨60, _⟩ => ⟨S16x96x768, .f32⟩
  | .hbm, ⟨61, _⟩ => ⟨S_, .f32⟩
  | .hbm, ⟨62, _⟩ => ⟨S16x768, .f32⟩
  | .hbm, ⟨63, _⟩ => ⟨S_, .f32⟩
  | .hbm, ⟨64, _⟩ => ⟨S16x768, .f32⟩
  | .hbm, ⟨65, _⟩ => ⟨S16x768, .f32⟩
  | .hbm, ⟨66, _⟩ => ⟨S768x768, .f32⟩
  | .hbm, ⟨67, _⟩ => ⟨S16x768, .f32⟩
  | .hbm, ⟨68, _⟩ => ⟨S1x768, .f32⟩
  | .hbm, ⟨69, _⟩ => ⟨S16x768, .f32⟩
  | .hbm, ⟨70, _⟩ => ⟨S16x768, .f32⟩
  | .hbm, ⟨71, _⟩ => ⟨S16x768, .f32⟩
  | .hbm, ⟨72, _⟩ => ⟨S16x768, .f32⟩
  | .hbm, ⟨73, _⟩ => ⟨S_, .f32⟩
  | .hbm, ⟨74, _⟩ => ⟨S16x768, .f32⟩
  | .hbm, ⟨75, _⟩ => ⟨S16x768, .f32⟩
  | .hbm, ⟨76, _⟩ => ⟨S_, .f32⟩
  | .hbm, ⟨77, _⟩ => ⟨S16x768, .f32⟩
  | .hbm, ⟨78, _⟩ => ⟨S16x768, .f32⟩
  | .local _ .vmem, ⟨0, _⟩ => ⟨S1x16x768, .f32⟩
  | .local _ .vmem, ⟨1, _⟩ => ⟨S1x16x768, .f32⟩
  | .local _ .vmem, ⟨2, _⟩ => ⟨S1x16x96, .f32⟩
  | .local _ .vmem, ⟨3, _⟩ => ⟨S1x16x96, .f32⟩
  | .local _ .vmem, ⟨4, _⟩ => ⟨S1x96x768, .f32⟩
  | .local _ .vmem, ⟨5, _⟩ => ⟨S1x96x768, .f32⟩
  | .local _ .vmem, ⟨6, _⟩ => ⟨S96x768, .f32⟩
  | _, _ => ⟨S16x96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c5_i32 : BitVec 32 := 5#32
  let v18 : BitVec 1 := Scalar.cmpi .eq arg1 c5_i32
  let v19 : BitVec 32 := Scalar.extui v18
  let c0_i32_10 : BitVec 32 := 0#32
  let v20 : BitVec 1 := Scalar.cmpi .ne v19 c0_i32_10
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x96x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S_S16x96 : S_.BroadcastsInDim S16x96 (![] : Fin 0 → Fin S16x96.rank)
  bcast_S16x96_S16x96x1_0_1 : S16x96.BroadcastsInDim S16x96x1 (![0, 1] : Fin 2 → Fin S16x96x1.rank)
  bcast_S16x96_S16x1x96_0_2 : S16x96.BroadcastsInDim S16x1x96 (![0, 2] : Fin 2 → Fin S16x1x96.rank)
  bcast_S_S16x96x1 : S_.BroadcastsInDim S16x96x1 (![] : Fin 0 → Fin S16x96x1.rank)
  bcast_S_S16x1x96 : S_.BroadcastsInDim S16x1x96 (![] : Fin 0 → Fin S16x1x96.rank)
  bcast_S16x96x1_S16x96x96_0_1_2 : S16x96x1.BroadcastsInDim S16x96x96 (![0, 1, 2] : Fin 3 → Fin S16x96x96.rank)
  bcast_S16x1x96_S16x96x96_0_1_2 : S16x1x96.BroadcastsInDim S16x96x96 (![0, 1, 2] : Fin 3 → Fin S16x96x96.rank)
  bcast_S16x96x96_S16x96x96x1_0_1_2 : S16x96x96.BroadcastsInDim S16x96x96x1 (![0, 1, 2] : Fin 3 → Fin S16x96x96x1.rank)
  concatenates_S16x96x96x1_S16x96x96x1_S16x96x96x2_d3 : Shape.Concatenates [S16x96x96x1, S16x96x96x1] S16x96x96x2 3
  bcast_S_S16x96x96 : S_.BroadcastsInDim S16x96x96 (![] : Fin 0 → Fin S16x96x96.rank)
  inb_S96x768_S96x768_0_0 : ∀ a, (![0, 0] : Fin 2 → Nat) a + S96x768.size a ≤ S96x768.size a
  h_S96x768 : 0 < S96x768.numel
  shapeCasts_S96x768_S96x768 : S96x768.ShapeCasts S96x768
  inb_S1x16x768_S1x16x768_0_0_0 : ∀ a, (![0, 0, 0] : Fin 3 → Nat) a + S1x16x768.size a ≤ S1x16x768.size a
  h_S1x16x768 : 0 < S1x16x768.numel
  shapeCasts_S1x16x768_S16x768 : S1x16x768.ShapeCasts S16x768
  inb_S1x16x96_S1x16x96_0_0_0 : ∀ a, (![0, 0, 0] : Fin 3 → Nat) a + S1x16x96.size a ≤ S1x16x96.size a
  h_S1x16x96 : 0 < S1x16x96.numel
  shapeCasts_S1x16x96_S16x96 : S1x16x96.ShapeCasts S16x96
  shapeCasts_S16x768_S16x1x768 : S16x768.ShapeCasts S16x1x768
  shapeCasts_S16x96_S16x96x1 : S16x96.ShapeCasts S16x96x1
  broadcasts_S16x1x768_S16x96x768 : S16x1x768.Broadcasts S16x96x768
  broadcasts_S16x96x1_S16x96x768 : S16x96x1.Broadcasts S16x96x768
  reduces_S16x96x768_S96x768 : S16x96x768.Reduces [0] S96x768
  inb_S1x96x768_S1x96x768_0_0_0 : ∀ a, (![0, 0, 0] : Fin 3 → Nat) a + S1x96x768.size a ≤ S1x96x768.size a
  h_S1x96x768 : 0 < S1x96x768.numel
  shapeCasts_S1x96x768_S96x768 : S1x96x768.ShapeCasts S96x768
  shapeCasts_S96x768_S1x96x768 : S96x768.ShapeCasts S1x96x768
  shapeCasts_S1_S_ : S1.ShapeCasts S_
  bcast_S_S16x96x768 : S_.BroadcastsInDim S16x96x768 (![] : Fin 0 → Fin S16x96x768.rank)
  reducesTo_S16x96x768_S16x768_d1 : S16x96x768.ReducesTo [1] S16x768
  h_S_ : 0 < S_.numel
  bcast_S_S16x768 : S_.BroadcastsInDim S16x768 (![] : Fin 0 → Fin S16x768.rank)
  transposes_S768x768_S768x768_1_0 : S768x768.Transposes [1, 0] S768x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  gather_S4096x768_S16x96x1_S16x96x768_2_0_n_n_0_2_1768_wf : GatherDims.WF S4096x768 S16x96x1 S16x96x768 [2] [0] [] [0] [] 2 ![1, 768]
  gather_S4096x4096_S16x96x96x2_S16x96x96_n_01_n_n_01_3_11_wf : GatherDims.WF S4096x4096 S16x96x96x2 S16x96x96 [] [0, 1] [] [0, 1] [] 3 ![1, 1]
  gather_S100000x1_S16x96x96x2_S16x96x96_n_01_n_n_01_3_11_wf : GatherDims.WF S100000x1 S16x96x96x2 S16x96x96 [] [0, 1] [] [0, 1] [] 3 ![1, 1]
  dot_S16x768_S768x768_S16x768_1_0_0_1_n_n_wf : DotDims.WF S16x768 S768x768 S16x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x768.size a ≤ S16x96x768.size a
  hwx0_0 : ∀ i : grid0.Coords, EltTy.bits .f32 = 32 ∨ (Rect.block (s := S16x96x768) S1x16x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x96.size a ≤ S16x96x96.size a
  hwx0_1 : ∀ i : grid0.Coords, EltTy.bits .f32 = 32 ∨ (Rect.block (s := S16x96x96) S1x16x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x96x768.size a ≤ S16x96x768.size a
  hwx0_2 : ∀ i : grid0.Coords, EltTy.bits .f32 = 32 ∨ (Rect.block (s := S16x96x768) S1x96x768.size (cc0_transform_2 i) (hinb0_2 i)).WholeWords (EltTy.packing .f32)

variable [Facts₀]

def gather_S4096x768_S16x96x1_S16x96x768_2_0_n_n_0_2_1768 : GatherDims S4096x768 S16x96x1 S16x96x768 where
  offsetDims := [2]
  collapsedSliceDims := [0]
  operandBatchingDims := []
  startIndicesBatchingDims := []
  startIndexMap := [0]
  indexVectorDim := 2
  sliceSizes := ![1, 768]
  wf := gather_S4096x768_S16x96x1_S16x96x768_2_0_n_n_0_2_1768_wf
def gather_S4096x4096_S16x96x96x2_S16x96x96_n_01_n_n_01_3_11 : GatherDims S4096x4096 S16x96x96x2 S16x96x96 where
  offsetDims := []
  collapsedSliceDims := [0, 1]
  operandBatchingDims := []
  startIndicesBatchingDims := []
  startIndexMap := [0, 1]
  indexVectorDim := 3
  sliceSizes := ![1, 1]
  wf := gather_S4096x4096_S16x96x96x2_S16x96x96_n_01_n_n_01_3_11_wf
def gather_S100000x1_S16x96x96x2_S16x96x96_n_01_n_n_01_3_11 : GatherDims S100000x1 S16x96x96x2 S16x96x96 where
  offsetDims := []
  collapsedSliceDims := [0, 1]
  operandBatchingDims := []
  startIndicesBatchingDims := []
  startIndexMap := [0, 1]
  indexVectorDim := 3
  sliceSizes := ![1, 1]
  wf := gather_S100000x1_S16x96x96x2_S16x96x96_n_01_n_n_01_3_11_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf

abbrev win0_0 : Pipeline.Window sig grid0 :=
  Pipeline.Window.ofSpec (Memref.whole main_v6) S1x16x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S1x16x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x96x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x96 : Shape := ⟨2, ![16, 96]⟩
abbrev S4096x768 : Shape := ⟨2, ![4096, 768]⟩
abbrev S100000x1 : Shape := ⟨2, ![100000, 1]⟩
abbrev S4096x4096 : Shape := ⟨2, ![4096, 4096]⟩
abbrev S1 : Shape := ⟨1, ![1]⟩
abbrev S768x768 : Shape := ⟨2, ![768, 768]⟩
abbrev S768 : Shape := ⟨1, ![768]⟩
abbrev S_ : Shape := ⟨0, ![]⟩
abbrev S16x96x1 : Shape := ⟨3, ![16, 96, 1]⟩
abbrev S16x96x768 : Shape := ⟨3, ![16, 96, 768]⟩
abbrev S16x1x96 : Shape := ⟨3, ![16, 1, 96]⟩
abbrev S16x96x96 : Shape := ⟨3, ![16, 96, 96]⟩
abbrev S16x96x96x1 : Shape := ⟨4, ![16, 96, 96, 1]⟩
abbrev S16x96x96x2 : Shape := ⟨4, ![16, 96, 96, 2]⟩
abbrev S16x96x1x768 : Shape := ⟨4, ![16, 96, 1, 768]⟩
abbrev S16x96x96x768 : Shape := ⟨4, ![16, 96, 96, 768]⟩
abbrev S1x1x1 : Shape := ⟨3, ![1, 1, 1]⟩
abbrev S16x768 : Shape := ⟨2, ![16, 768]⟩
abbrev S1x768 : Shape := ⟨2, ![1, 768]⟩

abbrev nBuf : Space → Nat
  | .hbm => 87
  | .vmem => 0
  | .smem => 0
  | _ => 0

abbrev bufTy : (tb : Table) → Fin (tcTables nBuf tb) → BufTy
  | .hbm, ⟨0, _⟩ => ⟨S16x96, .i32⟩
  | .hbm, ⟨1, _⟩ => ⟨S4096x768, .f32⟩
  | .hbm, ⟨2, _⟩ => ⟨S100000x1, .f32⟩
  | .hbm, ⟨3, _⟩ => ⟨S4096x4096, .i32⟩
  | .hbm, ⟨4, _⟩ => ⟨S1, .f32⟩
  | .hbm, ⟨5, _⟩ => ⟨S768x768, .f32⟩
  | .hbm, ⟨6, _⟩ => ⟨S768, .f32⟩
  | .hbm, ⟨7, _⟩ => ⟨S_, .i32⟩
  | .hbm, ⟨8, _⟩ => ⟨S16x96, .i32⟩
  | .hbm, ⟨9, _⟩ => ⟨S16x96, .i1⟩
  | .hbm, ⟨10, _⟩ => ⟨S_, .i32⟩
  | .hbm, ⟨11, _⟩ => ⟨S16x96, .i32⟩
  | .hbm, ⟨12, _⟩ => ⟨S16x96, .i32⟩
  | .hbm, ⟨13, _⟩ => ⟨S16x96, .i32⟩
  | .hbm, ⟨14, _⟩ => ⟨S16x96x1, .i32⟩
  | .hbm, ⟨15, _⟩ => ⟨S16x96x768, .f32⟩
  | .hbm, ⟨16, _⟩ => ⟨S16x96x1, .i32⟩
  | .hbm, ⟨17, _⟩ => ⟨S16x1x96, .i32⟩
  | .hbm, ⟨18, _⟩ => ⟨S_, .i32⟩
  | .hbm, ⟨19, _⟩ => ⟨S16x96x1, .i32⟩
  | .hbm, ⟨20, _⟩ => ⟨S16x96x1, .i1⟩
  | .hbm, ⟨21, _⟩ => ⟨S_, .i32⟩
  | .hbm, ⟨22, _⟩ => ⟨S16x96x1, .i32⟩
  | .hbm, ⟨23, _⟩ => ⟨S16x96x1, .i32⟩
  | .hbm, ⟨24, _⟩ => ⟨S16x96x1, .i32⟩
  | .hbm, ⟨25, _⟩ => ⟨S_, .i32⟩
  | .hbm, ⟨26, _⟩ => ⟨S16x1x96, .i32⟩
  | .hbm, ⟨27, _⟩ => ⟨S16x1x96, .i1⟩
  | .hbm, ⟨28, _⟩ => ⟨S_, .i32⟩
  | .hbm, ⟨29, _⟩ => ⟨S16x1x96, .i32⟩
  | .hbm, ⟨30, _⟩ => ⟨S16x1x96, .i32⟩
  | .hbm, ⟨31, _⟩ => ⟨S16x1x96, .i32⟩
  | .hbm, ⟨32, _⟩ => ⟨S16x96x96, .i32⟩
  | .hbm, ⟨33, _⟩ => ⟨S16x96x96, .i32⟩
  | .hbm, ⟨34, _⟩ => ⟨S16x96x96x1, .i32⟩
  | .hbm, ⟨35, _⟩ => ⟨S16x96x96x1, .i32⟩
  | .hbm, ⟨36, _⟩ => ⟨S16x96x96x2, .i32⟩
  | .hbm, ⟨37, _⟩ => ⟨S16x96x96, .i32⟩
  | .hbm, ⟨38, _⟩ => ⟨S_, .i32⟩
  | .hbm, ⟨39, _⟩ => ⟨S16x96x96, .i32⟩
  | .hbm, ⟨40, _⟩ => ⟨S16x96x96, .i1⟩
  | .hbm, ⟨41, _⟩ => ⟨S_, .i32⟩
  | .hbm, ⟨42, _⟩ => ⟨S16x96x96, .i32⟩
  | .hbm, ⟨43, _⟩ => ⟨S16x96x96, .i32⟩
  | .hbm, ⟨44, _⟩ => ⟨S16x96x96, .i32⟩
  | .hbm, ⟨45, _⟩ => ⟨S_, .i32⟩
  | .hbm, ⟨46, _⟩ => ⟨S16x96x96, .i32⟩
  | .hbm, ⟨47, _⟩ => ⟨S16x96x96, .i32⟩
  | .hbm, ⟨48, _⟩ => ⟨S16x96x96x1, .i32⟩
  | .hbm, ⟨49, _⟩ => ⟨S16x96x96x1, .i32⟩
  | .hbm, ⟨50, _⟩ => ⟨S16x96x96x2, .i32⟩
  | .hbm, ⟨51, _⟩ => ⟨S16x96x96, .f32⟩
  | .hbm, ⟨52, _⟩ => ⟨S16x96x1x768, .f32⟩
  | .hbm, ⟨53, _⟩ => ⟨S16x96x96x1, .f32⟩
  | .hbm, ⟨54, _⟩ => ⟨S16x96x96x768, .f32⟩
  | .hbm, ⟨55, _⟩ => ⟨S16x96x96x768, .f32⟩
  | .hbm, ⟨56, _⟩ => ⟨S16x96x96x768, .f32⟩
  | .hbm, ⟨57, _⟩ => ⟨S_, .f32⟩
  | .hbm, ⟨58, _⟩ => ⟨S16x96x768, .f32⟩
  | .hbm, ⟨59, _⟩ => ⟨S1x1x1, .f32⟩
  | .hbm, ⟨60, _⟩ => ⟨S16x96x768, .f32⟩
  | .hbm, ⟨61, _⟩ => ⟨S16x96x768, .f32⟩
  | .hbm, ⟨62, _⟩ => ⟨S_, .f32⟩
  | .hbm, ⟨63, _⟩ => ⟨S1, .f32⟩
  | .hbm, ⟨64, _⟩ => ⟨S1, .f32⟩
  | .hbm, ⟨65, _⟩ => ⟨S1x1x1, .f32⟩
  | .hbm, ⟨66, _⟩ => ⟨S16x96x768, .f32⟩
  | .hbm, ⟨67, _⟩ => ⟨S16x96x768, .f32⟩
  | .hbm, ⟨68, _⟩ => ⟨S16x96x768, .f32⟩
  | .hbm, ⟨69, _⟩ => ⟨S_, .f32⟩
  | .hbm, ⟨70, _⟩ => ⟨S16x768, .f32⟩
  | .hbm, ⟨71, _⟩ => ⟨S_, .f32⟩
  | .hbm, ⟨72, _⟩ => ⟨S16x768, .f32⟩
  | .hbm, ⟨73, _⟩ => ⟨S16x768, .f32⟩
  | .hbm, ⟨74, _⟩ => ⟨S768x768, .f32⟩
  | .hbm, ⟨75, _⟩ => ⟨S16x768, .f32⟩
  | .hbm, ⟨76, _⟩ => ⟨S1x768, .f32⟩
  | .hbm, ⟨77, _⟩ => ⟨S16x768, .f32⟩
  | .hbm, ⟨78, _⟩ => ⟨S16x768, .f32⟩
  | .hbm, ⟨79, _⟩ => ⟨S16x768, .f32⟩
  | .hbm, ⟨80, _⟩ => ⟨S16x768, .f32⟩
  | .hbm, ⟨81, _⟩ => ⟨S_, .f32⟩
  | .hbm, ⟨82, _⟩ => ⟨S16x768, .f32⟩
  | .hbm, ⟨83, _⟩ => ⟨S16x768, .f32⟩
  | .hbm, ⟨84, _⟩ => ⟨S_, .f32⟩
  | .hbm, ⟨85, _⟩ => ⟨S16x768, .f32⟩
  | .hbm, ⟨86, _⟩ => ⟨S16x768, .f32⟩
  | _, _ => ⟨S16x96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_8 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_9 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩

abbrev nD : Nat := 1
abbrev τ : Topo := Topo.v7x

variable {F : FTy → Type} [FloatOps F]

class Facts₀ : Prop where
  bcast_S_S16x96 : S_.BroadcastsInDim S16x96 (![] : Fin 0 → Fin S16x96.rank)
  bcast_S16x96_S16x96x1_0_1 : S16x96.BroadcastsInDim S16x96x1 (![0, 1] : Fin 2 → Fin S16x96x1.rank)
  bcast_S16x96_S16x1x96_0_2 : S16x96.BroadcastsInDim S16x1x96 (![0, 2] : Fin 2 → Fin S16x1x96.rank)
  bcast_S_S16x96x1 : S_.BroadcastsInDim S16x96x1 (![] : Fin 0 → Fin S16x96x1.rank)
  bcast_S_S16x1x96 : S_.BroadcastsInDim S16x1x96 (![] : Fin 0 → Fin S16x1x96.rank)
  bcast_S16x96x1_S16x96x96_0_1_2 : S16x96x1.BroadcastsInDim S16x96x96 (![0, 1, 2] : Fin 3 → Fin S16x96x96.rank)
  bcast_S16x1x96_S16x96x96_0_1_2 : S16x1x96.BroadcastsInDim S16x96x96 (![0, 1, 2] : Fin 3 → Fin S16x96x96.rank)
  bcast_S16x96x96_S16x96x96x1_0_1_2 : S16x96x96.BroadcastsInDim S16x96x96x1 (![0, 1, 2] : Fin 3 → Fin S16x96x96x1.rank)
  concatenates_S16x96x96x1_S16x96x96x1_S16x96x96x2_d3 : Shape.Concatenates [S16x96x96x1, S16x96x96x1] S16x96x96x2 3
  bcast_S_S16x96x96 : S_.BroadcastsInDim S16x96x96 (![] : Fin 0 → Fin S16x96x96.rank)
  bcast_S16x96x768_S16x96x1x768_0_1_3 : S16x96x768.BroadcastsInDim S16x96x1x768 (![0, 1, 3] : Fin 3 → Fin S16x96x1x768.rank)
  bcast_S16x96x1x768_S16x96x96x768_0_1_2_3 : S16x96x1x768.BroadcastsInDim S16x96x96x768 (![0, 1, 2, 3] : Fin 4 → Fin S16x96x96x768.rank)
  bcast_S16x96x96x1_S16x96x96x768_0_1_2_3 : S16x96x96x1.BroadcastsInDim S16x96x96x768 (![0, 1, 2, 3] : Fin 4 → Fin S16x96x96x768.rank)
  reducesTo_S16x96x96x768_S16x96x768_d1 : S16x96x96x768.ReducesTo [1] S16x96x768
  h_S_ : 0 < S_.numel
  bcast_S1_S1x1x1_2 : S1.BroadcastsInDim S1x1x1 (![2] : Fin 1 → Fin S1x1x1.rank)
  bcast_S1x1x1_S16x96x768_0_1_2 : S1x1x1.BroadcastsInDim S16x96x768 (![0, 1, 2] : Fin 3 → Fin S16x96x768.rank)
  bcast_S_S1 : S_.BroadcastsInDim S1 (![] : Fin 0 → Fin S1.rank)
  reducesTo_S16x96x768_S16x768_d1 : S16x96x768.ReducesTo [1] S16x768
  bcast_S_S16x768 : S_.BroadcastsInDim S16x768 (![] : Fin 0 → Fin S16x768.rank)
  transposes_S768x768_S768x768_1_0 : S768x768.Transposes [1, 0] S768x768
  bcast_S768_S1x768_1 : S768.BroadcastsInDim S1x768 (![1] : Fin 1 → Fin S1x768.rank)
  bcast_S1x768_S16x768_0_1 : S1x768.BroadcastsInDim S16x768 (![0, 1] : Fin 2 → Fin S16x768.rank)
  gather_S4096x768_S16x96x1_S16x96x768_2_0_n_n_0_2_1768_wf : GatherDims.WF S4096x768 S16x96x1 S16x96x768 [2] [0] [] [0] [] 2 ![1, 768]
  gather_S4096x4096_S16x96x96x2_S16x96x96_n_01_n_n_01_3_11_wf : GatherDims.WF S4096x4096 S16x96x96x2 S16x96x96 [] [0, 1] [] [0, 1] [] 3 ![1, 1]
  gather_S100000x1_S16x96x96x2_S16x96x96_n_01_n_n_01_3_11_wf : GatherDims.WF S100000x1 S16x96x96x2 S16x96x96 [] [0, 1] [] [0, 1] [] 3 ![1, 1]
  dot_S16x768_S768x768_S16x768_1_0_0_1_n_n_wf : DotDims.WF S16x768 S768x768 S16x768 [1] [0] [0] [1] [] []

variable [Facts₀]

def gather_S4096x768_S16x96x1_S16x96x768_2_0_n_n_0_2_1768 : GatherDims S4096x768 S16x96x1 S16x96x768 where
  offsetDims := [2]
  collapsedSliceDims := [0]
  operandBatchingDims := []
  startIndicesBatchingDims := []
  startIndexMap := [0]
  indexVectorDim := 2
  sliceSizes := ![1, 768]
  wf := gather_S4096x768_S16x96x1_S16x96x768_2_0_n_n_0_2_1768_wf
def gather_S4096x4096_S16x96x96x2_S16x96x96_n_01_n_n_01_3_11 : GatherDims S4096x4096 S16x96x96x2 S16x96x96 where
  offsetDims := []
  collapsedSliceDims := [0, 1]
  operandBatchingDims := []
  startIndicesBatchingDims := []
  startIndexMap := [0, 1]
  indexVectorDim := 3
  sliceSizes := ![1, 1]
  wf := gather_S4096x4096_S16x96x96x2_S16x96x96_n_01_n_n_01_3_11_wf
def gather_S100000x1_S16x96x96x2_S16x96x96_n_01_n_n_01_3_11 : GatherDims S100000x1 S16x96x96x2 S16x96x96 where
  offsetDims := []
  collapsedSliceDims := [0, 1]
  operandBatchingDims := []
  startIndicesBatchingDims := []
  startIndexMap := [0, 1]
  indexVectorDim := 3
  sliceSizes := ![1, 1]
  wf := gather_S100000x1_S16x96x96x2_S16x96x96_n_01_n_n_01_3_11_wf
def dot_S16x768_S768x768_S16x768_1_0_0_1_n_n : DotDims S16x768 S768x768 S16x768 where
  lhsContracting := [1]
  rhsContracting := [0]
  lhsNonContracting := [0]
  rhsNonContracting := [1]
  lhsBatch := []
  rhsBatch := []
  wf := dot_S16x768_S768x768_S16x768_1_0_0_1_n_n_wf

class Facts : Prop extends Facts₀ where

variable [Facts]
-- ==== Proof.Pieces.lean ====
/-
  What one run of the kernel body leaves behind, as values. The body keeps a running maximum in a scratch block of 96
  destinations by 768 features. At the first chunk of a sample it fills the scratch with -∞ before accumulating; at every
  chunk it replaces the scratch by the maximum of the scratch and the chunk's own maximum; at the last chunk it also
  copies the scratch into the output block. Each lemma reads the stores the body's run found back as one value: the
  body's arithmetic applied to the input blocks and to what the scratch held before.
-/
import proofs.«141505_j7052336300299_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First chunk of a sample: the scratch ends at the accumulation step applied to the block of -∞. -/
theorem scr_A (c : Dev nD) (i : grid0.Coords) (a2 : Memref sig .tc .vmem S1x16x768 .f32) (h2 : a2.IsWhole)
    (a3 : Memref sig .tc .vmem S1x16x96 .f32) (h3 : a3.IsWhole) (a4 : Memref sig .tc .vmem S1x96x768 .f32) (h4 : a4.IsWhole)
    (a5 : Memref sig .tc .vmem S96x768 .f32) (h5 : a5.IsWhole) (hc0 : cond0_0 i) (hc1 : ¬cond0_1 i)
    (x0 : Vec F S1x16x768 .f32) (x1 : Vec F S1x16x96 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S96x768) hz2, View.readCov_unit_zero (S := S96x768) _ hz2]
  simp only [View.readAt_eq_ld, h2.read_unread, h3.read_unread, View.ld_unit_zero (S := S1x16x768) hz3,
    View.ld_unit_zero (S := S1x16x96) hz3]

/-- A middle chunk: the scratch ends at the accumulation step applied to what it held. -/
theorem scr_B (c : Dev nD) (i : grid0.Coords) (a2 : Memref sig .tc .vmem S1x16x768 .f32) (h2 : a2.IsWhole)
    (a3 : Memref sig .tc .vmem S1x16x96 .f32) (h3 : a3.IsWhole) (a4 : Memref sig .tc .vmem S1x96x768 .f32) (h4 : a4.IsWhole)
    (a5 : Memref sig .tc .vmem S96x768 .f32) (h5 : a5.IsWhole) (hc0 : ¬cond0_0 i) (hc1 : ¬cond0_1 i)
    (x0 : Vec F S1x16x768 .f32) (x1 : Vec F S1x16x96 .f32) (xs0 : Vec F S96x768 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero (S := S96x768) hz2]
  simp only [View.readAt_eq_ld, h2.read_unread, h3.read_unread, h5.read_unread, View.ld_unit_zero (S := S1x16x768) hz3,
    View.ld_unit_zero (S := S1x16x96) hz3, View.ld_unit_zero (S := S96x768) hz2]

/-- The last chunk: the scratch, as at a middle chunk. -/
theorem scr_C (c : Dev nD) (i : grid0.Coords) (a2 : Memref sig .tc .vmem S1x16x768 .f32) (h2 : a2.IsWhole)
    (a3 : Memref sig .tc .vmem S1x16x96 .f32) (h3 : a3.IsWhole) (a4 : Memref sig .tc .vmem S1x96x768 .f32) (h4 : a4.IsWhole)
    (a5 : Memref sig .tc .vmem S96x768 .f32) (h5 : a5.IsWhole) (hc0 : ¬cond0_0 i) (hc1 : cond0_1 i)
    (x0 : Vec F S1x16x768 .f32) (x1 : Vec F S1x16x96 .f32) (xs0 : Vec F S96x768 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero (S := S96x768) hz2]
  simp only [View.readAt_eq_ld, h2.read_unread, h3.read_unread, h5.read_unread, View.ld_unit_zero (S := S1x16x768) hz3,
    View.ld_unit_zero (S := S1x16x96) hz3, View.ld_unit_zero (S := S96x768) hz2]

/-- The last chunk: the output block is the scratch just written, recast with a leading unit axis. -/
theorem out_C (c : Dev nD) (i : grid0.Coords) (a2 : Memref sig .tc .vmem S1x16x768 .f32) (h2 : a2.IsWhole)
    (a3 : Memref sig .tc .vmem S1x16x96 .f32) (h3 : a3.IsWhole) (a4 : Memref sig .tc .vmem S1x96x768 .f32) (h4 : a4.IsWhole)
    (a5 : Memref sig .tc .vmem S96x768 .f32) (h5 : a5.IsWhole) (hc0 : ¬cond0_0 i) (hc1 : cond0_1 i)
    (x0 : Vec F S1x16x768 .f32) (x1 : Vec F S1x16x96 .f32) (xs0 : Vec F S96x768 .f32) :
    out0_C_2 c i a2 h2 a3 h3 a4 h4 a5 h5 hc0 hc1 x0 x1 xs0 = k0_pay3 (k0_pay2 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero (S := S1x96x768) hz3, View.readCov_unit_zero (S := S96x768) _ hz2]
  simp only [View.readAt_eq_ld, h2.read_unread, h3.read_unread, h5.read_unread, View.ld_unit_zero (S := S1x16x768) hz3,
    View.ld_unit_zero (S := S1x16x96) hz3, View.ld_unit_zero (S := S96x768) hz2]

end Cert.KernelIdeal.Pieces

end
-- ==== Proof.MaxChunks.lean ====
/-
  Chunked maxima. A maximum over 96 sources taken in one sweep equals the result of six accumulation steps, each
  joining the running value with the maximum of the next 16 sources, started from the bottom element. Stated over
  any linear order with a bottom; the extended reals are the instance used, with bottom -∞.

  The running value after `s` steps is written `partialMax f s`: the maximum over ALL 96 sources of the family that
  is `f i` for `i < 16 s` and bottom elsewhere. Everything is proved through the universal property of a
  maximum over a finite set: `fold max b f ≤ c` iff `b ≤ c` and every `f x ≤ c`.
-/
import Mathlib.Data.Finset.Fold
import Mathlib.Order.BoundedOrder.Basic
import Mathlib.Data.Fintype.Basic
import Mathlib.Data.Fin.Basic

namespace Cert.MsgMax

variable {α : Type*} [LinearOrder α] [OrderBot α]

/-- The running maximum after `s` chunks of 16: sources below `16 s` count, the others contribute bottom. -/
def partialMax (f : Fin 96 → α) (s : ℕ) : α :=
  (Finset.univ : Finset (Fin 96)).fold max ⊥ (fun i => if i.val < 16 * s then f i else ⊥)

/-- The maximum of chunk `s`: sources `16 s + r`, `r < 16`. -/
def chunkMax (f : Fin 96 → α) (s : ℕ) (hs : s < 6) : α :=
  (Finset.univ : Finset (Fin 16)).fold max ⊥ (fun r => f ⟨16 * s + r.val, by have := r.isLt; omega⟩)

theorem partialMax_le_iff (f : Fin 96 → α) (s : ℕ) (c : α) :
    partialMax f s ≤ c ↔ ∀ i : Fin 96, i.val < 16 * s → f i ≤ c := by
  unfold partialMax
  rw [Finset.fold_max_le]
  constructor
  · rintro ⟨_, h⟩ i hi
    have := h i (Finset.mem_univ i)
    rwa [if_pos hi] at this
  · intro h
    refine ⟨bot_le, fun i _ => ?_⟩
    by_cases hi : i.val < 16 * s
    · rw [if_pos hi]; exact h i hi
    · rw [if_neg hi]; exact bot_le

theorem chunkMax_le_iff (f : Fin 96 → α) (s : ℕ) (hs : s < 6) (c : α) :
    chunkMax f s hs ≤ c ↔ ∀ i : Fin 96, 16 * s ≤ i.val → i.val < 16 * (s + 1) → f i ≤ c := by
  unfold chunkMax
  rw [Finset.fold_max_le]
  constructor
  · rintro ⟨_, h⟩ i h1 h2
    have := h ⟨i.val - 16 * s, by omega⟩ (Finset.mem_univ _)
    have e : (⟨16 * s + (i.val - 16 * s), by omega⟩ : Fin 96) = i := Fin.ext (by simp only; omega)
    rwa [e] at this
  · intro h
    exact ⟨bot_le, fun r _ => h _ (by simp only; omega) (by have := r.isLt; simp only; omega)⟩

/-- Nothing has been taken before the first chunk. -/
theorem partialMax_zero (f : Fin 96 → α) : partialMax f 0 = ⊥ :=
  le_antisymm ((partialMax_le_iff f 0 ⊥).2 fun i hi => absurd hi (by omega)) bot_le

/-- One accumulation step: join the running value with the next chunk's maximum. -/
theorem partialMax_succ (f : Fin 96 → α) (s : ℕ) (hs : s < 6) :
    partialMax f (s + 1) = max (partialMax f s) (chunkMax f s hs) := by
  refine eq_of_forall_ge_iff fun c => ?_
  rw [max_le_iff, partialMax_le_iff, partialMax_le_iff, chunkMax_le_iff]
  constructor
  · intro h
    exact ⟨fun i hi => h i (by omega), fun i _ h2 => h i h2⟩
  · rintro ⟨h1, h2⟩ i hi
    by_cases hlt : i.val < 16 * s
    · exact h1 i hlt
    · exact h2 i (by omega) hi

/-- After six chunks every source has been taken. -/
theorem partialMax_six (f : Fin 96 → α) :
    partialMax f 6 = (Finset.univ : Finset (Fin 96)).fold max ⊥ f := by
  refine eq_of_forall_ge_iff fun c => ?_
  rw [partialMax_le_iff, Finset.fold_max_le]
  constructor
  · intro h
    exact ⟨bot_le, fun i _ => h i (by have := i.isLt; omega)⟩
  · rintro ⟨_, h⟩ i _
    exact h i (Finset.mem_univ i)

end Cert.MsgMax
-- ==== Proof.Spec.lean ====
/-
  What the two programs compute, as functions of arrays over the extended reals.

  `H` is the gathered node features, one row of 768 features per (sample, node); `W` the gathered edge weights, one per
  (sample, source node, destination node). The message from source `i` to destination `j` of sample `b` at feature
  `d` is `H(b,i,d) · W(b,i,j)`, and a destination aggregates its 96 incoming messages by their maximum, from -∞.
  The aggregate is then blended with the node's own features, `η · H + (1 - η) · aggregate`, with `η` the single entry
  of a one-element array.
-/
import Idealize.ShloMosaic.PureOps.Ideal
import Idealize.ShloMosaic.Lib.ValueIdx
import proofs.«141505_j7052336300299_1_alg».proof.Proof.MaxChunks

noncomputable section

namespace Cert.MsgMax

open Idealize.ShloMosaic Idealize.ShloMosaic.ValueIdx

/-- The float word of -∞ denotes the bottom of the extended reals. -/
theorem ofBits_ninf : Ideal.ofBits .f32 0xFF800000#32 = (⊥ : EReal) := by
  simp [Ideal.ofBits, Ideal.ieee]

/-- Node features: sample, node, feature. -/
abbrev SH : Shape := ⟨3, ![16, 96, 768]⟩
/-- Edge weights: sample, source node, destination node. -/
abbrev SW : Shape := ⟨3, ![16, 96, 96]⟩

/-- The messages arriving at destination `j` of sample `b` at feature `d`, one per source node. -/
def msg (H : SH.Idx → EReal) (W : SW.Idx → EReal) (b : Fin 16) (j : Fin 96) (d : Fin 768) (i : Fin 96) : EReal :=
  H (ix3 b i d) * W (ix3 b i j)

/-- Each destination's maximum over its 96 incoming messages. -/
def aggregate (H : SH.Idx → EReal) (W : SW.Idx → EReal) : SH.Idx → EReal :=
  fun y => (Finset.univ : Finset (Fin 96)).fold max ⊥ (msg H W (y 0) (y 1) (y 2))

theorem aggregate_apply (H : SH.Idx → EReal) (W : SW.Idx → EReal) (b : Fin 16) (j : Fin 96) (d : Fin 768) :
    aggregate H W (ix3 b j d) = (Finset.univ : Finset (Fin 96)).fold max ⊥ (msg H W b j d) := rfl

/-- The blend of a node's own features with its aggregate, weights `η` and `1 - η` (the one as its float word). -/
def blend (η : EReal) (H A : SH.Idx → EReal) : SH.Idx → EReal :=
  fun y => η * H y + (Ideal.ofBits .f32 0x3F800000#32 - η) * A y

end Cert.MsgMax

end
-- ==== Proof.Payload.lean ====
/-
  The kernel body's arithmetic, read at one (destination, feature) entry, over the extended reals.

  One chunk holds 16 source nodes: their features `x0` as a [1,16,768] block and their edge weights towards all 96
  destinations `x1` as a [1,16,96] block. The body spreads both over (source, destination, feature), multiplies, takes
  the maximum over the 16 sources from -∞, and joins that with the running maximum. So at destination `j`, feature `d`:
  new = max (old (j,d)) (max over r < 16 of x0 (0,r,d) · x1 (0,r,j)).
-/
import proofs.«141505_j7052336300299_1_alg».proof.Proof.Gen.KernelIdeal.Skeleton
import proofs.«141505_j7052336300299_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.MsgMax.Body

variable {α : Type}

/-! ## The layout steps, each read at an index given by coordinates -/

/-- [16,768] recast as [16,1,768]: entry (r,u,d) is entry (r,d). -/
theorem cast_mid (x : (⟨2, ![16, 768]⟩ : Shape).Idx → α) (h : (⟨2, ![16, 768]⟩ : Shape).ShapeCasts ⟨3, ![16, 1, 768]⟩)
    (r : Fin 16) (u : Fin 1) (d : Fin 768) : shapeCast ⟨3, ![16, 1, 768]⟩ x h (ix3 r u d) = x (ix2 r d) :=
  shapeCast_apply x h _ _ (by
    have hu : u.val = 0 := by omega
    rw [Shape.rowMajor_val_two, Shape.rowMajor_val_three]
    show r.val * 768 + d.val = (r.val * 1 + u.val) * 768 + d.val
    rw [hu]; omega)

/-- [16,96] recast as [16,96,1]: entry (r,j,u) is entry (r,j). -/
theorem cast_last (x : (⟨2, ![16, 96]⟩ : Shape).Idx → α) (h : (⟨2, ![16, 96]⟩ : Shape).ShapeCasts ⟨3, ![16, 96, 1]⟩)
    (r : Fin 16) (j : Fin 96) (u : Fin 1) : shapeCast ⟨3, ![16, 96, 1]⟩ x h (ix3 r j u) = x (ix2 r j) :=
  shapeCast_apply x h _ _ (by
    have hu : u.val = 0 := by omega
    rw [Shape.rowMajor_val_two, Shape.rowMajor_val_three]
    show r.val * 96 + j.val = (r.val * 96 + j.val) * 1 + u.val
    rw [hu]; omega)

/-- [16,1,768] spread over 96 destinations: entry (r,j,d) is entry (r,0,d). -/
theorem spread_mid (x : (⟨3, ![16, 1, 768]⟩ : Shape).Idx → α) (h : (⟨3, ![16, 1, 768]⟩ : Shape).Broadcasts ⟨3, ![16, 96, 768]⟩)
    (r : Fin 16) (j : Fin 96) (d : Fin 768) : broadcastTo ⟨3, ![16, 96, 768]⟩ x h (ix3 r j d) = x (ix3 r (0 : Fin 1) d) :=
  broadcastTo_apply x h _ _ fun a => match a with
    | ⟨0, _⟩ => rfl
    | ⟨1, _⟩ => rfl
    | ⟨2, _⟩ => rfl

/-- [16,96,1] spread over 768 features: entry (r,j,d) is entry (r,j,0). -/
theorem spread_last (x : (⟨3, ![16, 96, 1]⟩ : Shape).Idx → α) (h : (⟨3, ![16, 96, 1]⟩ : Shape).Broadcasts ⟨3, ![16, 96, 768]⟩)
    (r : Fin 16) (j : Fin 96) (d : Fin 768) : broadcastTo ⟨3, ![16, 96, 768]⟩ x h (ix3 r j d) = x (ix3 r j (0 : Fin 1)) :=
  broadcastTo_apply x h _ _ fun a => match a with
    | ⟨0, _⟩ => rfl
    | ⟨1, _⟩ => rfl
    | ⟨2, _⟩ => rfl

/-- The chunk's features, spread: entry (r,j,d) is feature `d` of source `r`. -/
theorem feat_read (x0 : (⟨3, ![1, 16, 768]⟩ : Shape).Idx → α) (h1 : (⟨3, ![1, 16, 768]⟩ : Shape).ShapeCasts ⟨2, ![16, 768]⟩)
    (h2 : (⟨2, ![16, 768]⟩ : Shape).ShapeCasts ⟨3, ![16, 1, 768]⟩) (h3 : (⟨3, ![16, 1, 768]⟩ : Shape).Broadcasts ⟨3, ![16, 96, 768]⟩)
    (r : Fin 16) (j : Fin 96) (d : Fin 768) :
    broadcastTo ⟨3, ![16, 96, 768]⟩ (shapeCast ⟨3, ![16, 1, 768]⟩ (shapeCast ⟨2, ![16, 768]⟩ x0 h1) h2) h3 (ix3 r j d)
      = x0 (ix3 (0 : Fin 1) r d) :=
  (spread_mid _ h3 r j d).trans ((cast_mid _ h2 r 0 d).trans (shapeCast_1ab_ab_apply x0 h1 r d))

/-- The chunk's edge weights, spread: entry (r,j,d) is the weight from source `r` to destination `j`. -/
theorem weight_read (x1 : (⟨3, ![1, 16, 96]⟩ : Shape).Idx → α) (h1 : (⟨3, ![1, 16, 96]⟩ : Shape).ShapeCasts ⟨2, ![16, 96]⟩)
    (h2 : (⟨2, ![16, 96]⟩ : Shape).ShapeCasts ⟨3, ![16, 96, 1]⟩) (h3 : (⟨3, ![16, 96, 1]⟩ : Shape).Broadcasts ⟨3, ![16, 96, 768]⟩)
    (r : Fin 16) (j : Fin 96) (d : Fin 768) :
    broadcastTo ⟨3, ![16, 96, 768]⟩ (shapeCast ⟨3, ![16, 96, 1]⟩ (shapeCast ⟨2, ![16, 96]⟩ x1 h1) h2) h3 (ix3 r j d)
      = x1 (ix3 (0 : Fin 1) r j) :=
  (spread_last _ h3 r j d).trans ((cast_last _ h2 r j 0).trans (shapeCast_1ab_ab_apply x1 h1 r j))

/-! ## The maximum over the chunk's 16 sources -/

/-- The source index lying over (j,d) at source `r` is (r,j,d). -/
theorem lift_eq (h : (⟨3, ![16, 96, 768]⟩ : Shape).Reduces [(0 : Fin 3)] ⟨2, ![96, 768]⟩) (j : Fin 96) (d : Fin 768) (r : Fin 16) :
    h.lift (ix2 j d) r = ix3 r j d := by
  funext a
  apply Fin.ext
  show h.liftVal (ix2 j d) r.val a = (ix3 r j d a).val
  match a with
  | ⟨0, _⟩ => rfl
  | ⟨1, _⟩ => rfl
  | ⟨2, _⟩ => rfl

/-- A maximum over axis 0 of a [16,96,768] array of extended reals, from the word of -∞: at (j,d), the maximum of the 16
    entries (r,j,d) from the bottom element. -/
theorem chunk_max (v : FVec Ideal ⟨3, ![16, 96, 768]⟩ .f32) (h : (⟨3, ![16, 96, 768]⟩ : Shape).Reduces [(0 : Fin 3)] ⟨2, ![96, 768]⟩)
    (hφ : FKind.Formats .f32) (hacc : (0xFF800000#32 : BitVec 32) = FKind.maximumf.neutral .f32 hφ) (j : Fin 96) (d : Fin 768) :
    multiReduction .maximumf [(0 : Fin 3)] ⟨2, ![96, 768]⟩ v 0xFF800000#32 h hφ hacc (ix2 j d)
      = (Finset.univ : Finset (Fin 16)).fold max (⊥ : EReal) (fun r => v (ix3 r j d)) := by
  refine (Ideal.multiReduction_maximumf_single v _ h hφ hacc (ix2 j d)).trans ?_
  show (Finset.univ : Finset (Fin 16)).fold max (Ideal.ofBits .f32 0xFF800000#32) (v ∘ h.lift (ix2 j d)) = _
  rw [Cert.MsgMax.ofBits_ninf]
  exact congrArg (fun f => (Finset.univ : Finset (Fin 16)).fold max (⊥ : EReal) f) (funext fun r => congrArg v (lift_eq h j d r))

end Cert.MsgMax.Body

/-! ## The three payloads of the body -/

namespace Cert.KernelIdeal.Payload

open Cert.KernelIdeal Cert.KernelIdeal.Gen Cert.MsgMax.Body

/-- The fill of the scratch at a sample's first chunk is -∞ everywhere. -/
theorem pay1_apply (y : S96x768.Idx) : k0_pay1 (F := Ideal) y = (⊥ : EReal) := by
  unfold k0_pay1
  refine (congrFun (shapeCast_self _ _) y).trans ?_
  exact Cert.MsgMax.ofBits_ninf

/-- One accumulation step at (destination j, feature d). -/
theorem pay2_apply (x0 : Vec Ideal S1x16x768 .f32) (x1 : Vec Ideal S1x16x96 .f32) (acc : Vec Ideal S96x768 .f32)
    (j : Fin 96) (d : Fin 768) :
    k0_pay2 x0 x1 acc (ix2 j d)
      = max (acc (ix2 j d)) ((Finset.univ : Finset (Fin 16)).fold max (⊥ : EReal) (fun r => x0 (ix3 (0 : Fin 1) r d) * x1 (ix3 (0 : Fin 1) r j))) := by
  unfold k0_pay2
  dsimp only
  refine (congrFun (shapeCast_self _ _) (ix2 j d)).trans ?_
  refine congrArg (max (acc (ix2 j d))) ?_
  refine (chunk_max _ _ _ _ j d).trans ?_
  refine congrArg (fun f => (Finset.univ : Finset (Fin 16)).fold max (⊥ : EReal) f) (funext fun r => ?_)
  exact congrArg₂ (· * ·) (feat_read x0 _ _ _ r j d) (weight_read x1 _ _ _ r j d)

/-- The copy into the output block only adds a leading unit axis. -/
theorem pay3_apply (v : Vec Ideal S96x768 .f32) (u : Fin 1) (j : Fin 96) (d : Fin 768) :
    k0_pay3 v (ix3 u j d) = v (ix2 j d) := by
  unfold k0_pay3
  exact shapeCast_ab_1ab_apply v _ u j d

end Cert.KernelIdeal.Payload

end
-- ==== Proof.Accum.lean ====
/-
  The running maximum across the grid. Grid point `t = 6 b + s` handles chunk `s` (sources 16 s … 16 s + 15) of sample
  `b`. Its two input blocks are rows of the gathered features and edge weights as the region finds them:
  the feature block's entry (0,r,d) is feature `d` of source `16 s + r` of sample `b`, the weight block's entry
  (0,r,j) is the weight from that source to destination `j`. So one accumulation step joins the scratch with the
  maximum of the messages of chunk `s`, and by induction over the grid points the scratch after point `t` holds, at
  (j,d), the maximum of the messages from the sources below `16 (s + 1)`. At `s = 5` that is the maximum over all 96
  sources, and this is what the body copies into the output block.
-/
import proofs.«141505_j7052336300299_1_alg».proof.Proof.Pieces
import proofs.«141505_j7052336300299_1_alg».proof.Proof.Payload
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accum

open Cert.KernelIdeal Cert.KernelIdeal.Gen Cert.MsgMax

variable (m : (ℓ : Loc nD τ sig) → Buf (Elt Ideal) ℓ)

/-- The gathered node features as the region finds them. -/
abbrev feat (c : Dev nD) : SH.Idx → EReal := V m c main_v6
/-- The gathered edge weights as the region finds them. -/
abbrev wts (c : Dev nD) : SW.Idx → EReal := V m c main_v35

/-- The three windows' block indices at grid point `t`: sample `t / 6`, chunk `t % 6` for the inputs; sample `t / 6`
    for the output. Decided over the 96 grid points. -/
theorem idx_facts : ∀ t : Fin cfg0.N,
    win0_0.index t (0 : Fin 3) = t.val / 6 ∧ win0_0.index t (1 : Fin 3) = t.val % 6 ∧ win0_0.index t (2 : Fin 3) = 0
    ∧ win0_1.index t (0 : Fin 3) = t.val / 6 ∧ win0_1.index t (1 : Fin 3) = t.val % 6 ∧ win0_1.index t (2 : Fin 3) = 0
    ∧ win0_2.index t (0 : Fin 3) = t.val / 6 ∧ win0_2.index t (1 : Fin 3) = 0 ∧ win0_2.index t (2 : Fin 3) = 0 :=
  (by decide +kernel : ∀ t : Fin grid0.N, _)

/-- The feature block at point `6 b + s`: row `r` is source `16 s + r` of sample `b`. -/
theorem feat_blk (c : Dev nD) (t : Fin cfg0.N) (b : Fin 16) (s : ℕ) (hs : s < 6) (ht : t.val = 6 * b.val + s)
    (r : Fin 16) (d : Fin 768) :
    (iblk m c 0 t : Vec Ideal S1x16x768 .f32) (ix3 (0 : Fin 1) r d)
      = feat m c (ix3 b ⟨16 * s + r.val, by have := r.isLt; omega⟩ d) := by
  obtain ⟨e0, e1, e2, -⟩ := idx_facts t
  unfold iblk
  rw [View.read_apply]
  show V m c main_v6 _ = V m c main_v6 _
  refine congrArg (V m c main_v6) (funext fun a => Fin.ext ?_)
  match a with
  | ⟨0, _⟩ => show win0_0.index t (0 : Fin 3) * 1 + 1 * 0 = b.val; omega
  | ⟨1, _⟩ => show win0_0.index t (1 : Fin 3) * 16 + 1 * r.val = 16 * s + r.val; omega
  | ⟨2, _⟩ => show win0_0.index t (2 : Fin 3) * 768 + 1 * d.val = d.val; omega

/-- The weight block at point `6 b + s`: row `r` holds the weights from source `16 s + r` of sample `b`. -/
theorem wts_blk (c : Dev nD) (t : Fin cfg0.N) (b : Fin 16) (s : ℕ) (hs : s < 6) (ht : t.val = 6 * b.val + s)
    (r : Fin 16) (j : Fin 96) :
    (iblk m c 1 t : Vec Ideal S1x16x96 .f32) (ix3 (0 : Fin 1) r j)
      = wts m c (ix3 b ⟨16 * s + r.val, by have := r.isLt; omega⟩ j) := by
  obtain ⟨-, -, -, e0, e1, e2, -⟩ := idx_facts t
  unfold iblk
  rw [View.read_apply]
  show V m c main_v35 _ = V m c main_v35 _
  refine congrArg (V m c main_v35) (funext fun a => Fin.ext ?_)
  match a with
  | ⟨0, _⟩ => show win0_1.index t (0 : Fin 3) * 1 + 1 * 0 = b.val; omega
  | ⟨1, _⟩ => show win0_1.index t (1 : Fin 3) * 16 + 1 * r.val = 16 * s + r.val; omega
  | ⟨2, _⟩ => show win0_1.index t (2 : Fin 3) * 96 + 1 * j.val = j.val; omega

/-- One accumulation step at point `6 b + s`: the scratch joined with the maximum of chunk `s`'s messages. -/
theorem step (c : Dev nD) (t : Fin cfg0.N) (b : Fin 16) (s : ℕ) (hs : s < 6) (ht : t.val = 6 * b.val + s)
    (acc : Vec Ideal S96x768 .f32) (j : Fin 96) (d : Fin 768) :
    k0_pay2 (iblk m c 0 t) (iblk m c 1 t) acc (ix2 j d)
      = max (acc (ix2 j d)) (chunkMax (msg (feat m c) (wts m c) b j d) s hs) := by
  refine (Payload.pay2_apply (iblk m c 0 t) (iblk m c 1 t) acc j d).trans ?_
  refine congrArg (max (acc (ix2 j d))) ?_
  unfold chunkMax
  refine congrArg (fun f => (Finset.univ : Finset (Fin 16)).fold max (⊥ : EReal) f) (funext fun r => ?_)
  exact congrArg₂ (· * ·) (feat_blk m c t b s hs ht r d) (wts_blk m c t b s hs ht r j)

/-! ## What the scratch and the output hold after each point -/

/-- At a sample's first chunk the scratch ends at one step from the block of -∞. -/
theorem scratch_first (c : Dev nD) (t : Fin cfg0.N) (h0 : t.val % 6 = 0) :
    (outsAt0 m c t.val t.isLt).2 = k0_pay2 (iblk m c 0 t) (iblk m c 1 t) (k0_pay1 (F := Ideal)) := by
  have h1 : ¬t.val % 6 = 5 := by omega
  rw [outsAt0_A m c t h0 h1]
  dsimp only
  exact Pieces.scr_A c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- At any later chunk the scratch ends at one step from what the point before left. -/
theorem scratch_next (c : Dev nD) (t : Fin cfg0.N) (h0 : ¬t.val % 6 = 0) :
    (outsAt0 m c t.val t.isLt).2 = k0_pay2 (iblk m c 0 t) (iblk m c 1 t)
      (outsAt0 m c (t.val - 1) (Nat.lt_of_le_of_lt (Nat.sub_le _ _) t.isLt)).2 := by
  by_cases h1 : t.val % 6 = 5
  · rw [outsAt0_C m c t h0 h1]
    dsimp only
    exact Pieces.scr_C c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Pieces.scr_B c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At a sample's last chunk the output block is the scratch just written, with a leading unit axis. -/
theorem out_last (c : Dev nD) (t : Fin cfg0.N) (h5 : t.val % 6 = 5) :
    (outsAt0 m c t.val t.isLt).1 = k0_pay3 (k0_pay2 (iblk m c 0 t) (iblk m c 1 t)
      (outsAt0 m c (t.val - 1) (Nat.lt_of_le_of_lt (Nat.sub_le _ _) t.isLt)).2) := by
  have h0 : ¬t.val % 6 = 0 := by omega
  rw [outsAt0_C m c t h0 h5]
  dsimp only
  exact Pieces.out_C c (grid0.coords t) (ms0_0 t) (hs0_0 t) (ms0_1 t) (hs0_1 t) (ms0_2 t) (hs0_2 t) scM0_0
    (Memref.isWhole_whole _) (fun h => h0 ((hcond0_0 t).mp h)) ((hcond0_1 t).mpr h5) (iblk m c 0 t) (iblk m c 1 t)
    (outsAt0 m c (t.val - 1) (Nat.lt_of_le_of_lt (Nat.sub_le _ _) t.isLt)).2

/-- The sample a grid point belongs to. -/
def smp (n : ℕ) (h : n < cfg0.N) : Fin 16 := ⟨n / 6, by have : cfg0.N = 96 := N_0; omega⟩

/-- THE INVARIANT: after point `n` the scratch holds, at (j,d), the maximum of the messages to destination `j` of the
    point's sample from the sources of the chunks taken so far. -/
theorem scratch_eq (c : Dev nD) : ∀ (n : ℕ) (h : n < cfg0.N) (j : Fin 96) (d : Fin 768),
    (outsAt0 m c n h).2 (ix2 j d) = partialMax (msg (feat m c) (wts m c) (smp n h) j d) (n % 6 + 1) := by
  intro n
  induction n with
  | zero =>
    intro h j d
    refine (congrFun (scratch_first m c ⟨0, h⟩ rfl) (ix2 j d)).trans ?_
    refine (step m c ⟨0, h⟩ (smp 0 h) 0 (by omega) rfl _ j d).trans ?_
    rw [Payload.pay1_apply]
    exact ((partialMax_succ _ 0 (by omega)).trans (by rw [partialMax_zero])).symm
  | succ n ih =>
    intro h j d
    have hN : cfg0.N = 96 := N_0
    by_cases h0 : (n + 1) % 6 = 0
    · refine (congrFun (scratch_first m c ⟨n + 1, h⟩ h0) (ix2 j d)).trans ?_
      refine (step m c ⟨n + 1, h⟩ (smp (n + 1) h) 0 (by omega) (by show n + 1 = 6 * ((n + 1) / 6) + 0; omega) _ j d).trans ?_
      rw [Payload.pay1_apply, h0]
      exact ((partialMax_succ _ 0 (by omega)).trans (by rw [partialMax_zero])).symm
    · refine (congrFun (scratch_next m c ⟨n + 1, h⟩ h0) (ix2 j d)).trans ?_
      have hs : (n + 1) % 6 < 6 := by omega
      refine (step m c ⟨n + 1, h⟩ (smp (n + 1) h) ((n + 1) % 6) hs
        (by show n + 1 = 6 * ((n + 1) / 6) + (n + 1) % 6; omega) _ j d).trans ?_
      have e := ih (Nat.lt_of_succ_lt h) j d
      have eb : smp n (Nat.lt_of_succ_lt h) = smp (n + 1) h := Fin.ext (by show n / 6 = (n + 1) / 6; omega)
      have es : n % 6 + 1 = (n + 1) % 6 := by omega
      rw [eb, es] at e
      show max ((outsAt0 m c n _).2 (ix2 j d)) _ = _
      rw [e]
      exact (partialMax_succ _ _ hs).symm

/-- At a sample's last chunk the output block holds each destination's maximum over all 96 sources. -/
theorem out_eq (c : Dev nD) (t : Fin cfg0.N) (h5 : t.val % 6 = 5) (u : Fin 1) (j : Fin 96) (d : Fin 768) :
    (outsAt0 m c t.val t.isLt).1 (ix3 u j d) = aggregate (feat m c) (wts m c) (ix3 (smp t.val t.isLt) j d) := by
  have hN : cfg0.N = 96 := N_0
  have hlt := t.isLt
  refine (congrFun (out_last m c t h5) (ix3 u j d)).trans ?_
  refine (Payload.pay3_apply _ u j d).trans ?_
  refine (step m c t (smp t.val t.isLt) 5 (by omega) (by show t.val = 6 * (t.val / 6) + 5; omega) _ j d).trans ?_
  have e := scratch_eq m c (t.val - 1) (Nat.lt_of_le_of_lt (Nat.sub_le _ _) t.isLt) j d
  have eb : smp (t.val - 1) (Nat.lt_of_le_of_lt (Nat.sub_le _ _) t.isLt) = smp t.val t.isLt :=
    Fin.ext (by show (t.val - 1) / 6 = t.val / 6; omega)
  have es : (t.val - 1) % 6 + 1 = 5 := by omega
  rw [eb, es] at e
  rw [e, aggregate_apply, ← partialMax_six]
  exact (partialMax_succ _ 5 (by omega)).symm

end Cert.KernelIdeal.Accum

end
-- ==== Proof.Slabs.lean ====
/-
  From the output blocks to the output array. The output window's block for sample `b` is the whole [96,768] slab of
  that sample; it is written back once, after the sample's last chunk (grid points 6 b + 5), when it holds each
  destination's maximum over all 96 sources. The sixteen slabs tile the array, so after the run the array is the
  aggregate of the gathered features and edge weights, entry by entry.
-/
import proofs.«141505_j7052336300299_1_alg».proof.Proof.Accum

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Slabs

open Cert.KernelIdeal Cert.KernelIdeal.Gen Cert.MsgMax Cert.KernelIdeal.Accum

variable (m : (ℓ : Loc nD τ sig) → Buf (Elt Ideal) ℓ)

/-- The output block after a sample's last chunk, at an index of the block. -/
theorem out_read (c : Dev nD) (t : Fin cfg0.N) (h5 : t.val % 6 = 5) (y : S1x96x768.Idx) :
    (outsAt0 m c t.val t.isLt).1 y = aggregate (feat m c) (wts m c) (ix3 (smp t.val t.isLt) (y 1) (y 2)) :=
  (congrArg (outsAt0 m c t.val t.isLt).1 (eq_ix3 y)).trans (out_eq m c t h5 (y 0) (y 1) (y 2))

/-- An index of the array lies in point `t`'s output block iff each coordinate lies in the block's range. -/
theorem mem_blk (t : Fin cfg0.N) (i : S16x96x768.Idx) :
    i ∈ ((cfg0.win 2).blk t).view.set ↔ ∀ a : Fin 3, win0_2.index t a * S1x96x768.size a ≤ (i a).val
      ∧ (i a).val < win0_2.index t a * S1x96x768.size a + S1x96x768.size a := by
  show i ∈ ((View.whole main_v36).slice (win0_2.rect t)).set ↔ _
  rw [View.set_slice_whole, Rect.mem_set_unit]
  exact Iff.rfl

/-- What a flushing point writes back is its block of the aggregate. -/
theorem flushed_eq (c : Dev nD) (t : Fin cfg0.N) (hf : (cfg0.win 2).flush t = true) :
    (dats m 0 c).flushed 2 t = ((cfg0.win 2).blk t).view.read (Elt Ideal) (aggregate (feat m c) (wts m c)) := by
  have h5 : t.val % 6 = 5 := (flush0_2 t).mp hf
  obtain ⟨-, -, -, -, -, -, e0, e1, e2⟩ := idx_facts t
  show (cfg0.win 2).cut (grid0.coords t) ((dats m 0 c).after 2 t) = _
  rw [after0_2]
  funext y
  refine (out_read m c t h5 y).trans ?_
  rw [View.read_apply]
  refine congrArg (aggregate (feat m c) (wts m c)) (funext fun a => Fin.ext ?_)
  have hy0 : (y 0).val < 1 := (y 0).isLt
  match a with
  | ⟨0, _⟩ => show t.val / 6 = win0_2.index t (0 : Fin 3) * 1 + 1 * (y 0).val; omega
  | ⟨1, _⟩ => show (y 1).val = win0_2.index t (1 : Fin 3) * 96 + 1 * (y 1).val; omega
  | ⟨2, _⟩ => show (y 2).val = win0_2.index t (2 : Fin 3) * 768 + 1 * (y 2).val; omega

/-- The array after the run: the aggregate of the gathered features and edge weights. -/
theorem final (c : Dev nD) : (dats m 0 c).arrAt 2 cfg0.N = aggregate (feat m c) (wts m c) :=
  (dats m 0 c).arrAt_eq_of_cover 2 (aggregate (feat m c) (wts m c)) (flushed_eq m c) fun i => by
    have hN : cfg0.N = 96 := N_0
    have hi0 : (i 0 : Nat) < 16 := (i 0).isLt
    have hi1 : (i 1 : Nat) < 96 := (i 1).isLt
    have hi2 : (i 2 : Nat) < 768 := (i 2).isLt
    have ht : 6 * (i 0 : Nat) + 5 < cfg0.N := by omega
    obtain ⟨-, -, -, -, -, -, e0, e1, e2⟩ := idx_facts ⟨6 * (i 0 : Nat) + 5, ht⟩
    have ev : (⟨6 * (i 0 : Nat) + 5, ht⟩ : Fin cfg0.N).val = 6 * (i 0 : Nat) + 5 := rfl
    refine ⟨⟨6 * (i 0 : Nat) + 5, ht⟩, (flush0_2 _).mpr (by rw [ev]; omega), ?_⟩
    rw [mem_blk]
    intro a
    match a with
    | ⟨0, _⟩ =>
      show win0_2.index ⟨6 * (i 0 : Nat) + 5, ht⟩ (0 : Fin 3) * 1 ≤ (i 0 : Nat)
        ∧ (i 0 : Nat) < win0_2.index ⟨6 * (i 0 : Nat) + 5, ht⟩ (0 : Fin 3) * 1 + 1
      omega
    | ⟨1, _⟩ =>
      show win0_2.index ⟨6 * (i 0 : Nat) + 5, ht⟩ (1 : Fin 3) * 96 ≤ (i 1 : Nat)
        ∧ (i 1 : Nat) < win0_2.index ⟨6 * (i 0 : Nat) + 5, ht⟩ (1 : Fin 3) * 96 + 96
      omega
    | ⟨2, _⟩ =>
      show win0_2.index ⟨6 * (i 0 : Nat) + 5, ht⟩ (2 : Fin 3) * 768 ≤ (i 2 : Nat)
        ∧ (i 2 : Nat) < win0_2.index ⟨6 * (i 0 : Nat) + 5, ht⟩ (2 : Fin 3) * 768 + 768
      omega

end Cert.KernelIdeal.Slabs

end
-- ==== Proof.RefSide.lean ====
/-
  The reference, read back. Its result is the readout — mean over the 96 nodes of a sample, the linear layer, the
  logistic — of the blend `η · H + (1 - η) · A`, where `H` and `W` are the gathered features and edge weights and `A`
  is, at (sample b, destination j, feature d), the maximum over the 96 sources `i` of `H(b,i,d) · W(b,i,j)` from -∞:
  the reference spreads `H` and `W` over (sample, source, destination, feature), multiplies, and reduces the source
  axis by the maximum.
-/
import proofs.«141505_j7052336300299_1_alg».proof.Proof.Gen.ReferenceIdeal.Read
import proofs.«141505_j7052336300299_1_alg».proof.Proof.Spec
import Idealize.ShloMosaic.PureOps.Reduce

noncomputable section

open Idealize.ShloMosaic Idealize.ShloMosaic.TcCoe Idealize.SL.Sem Idealize.ShloMosaic.ValueIdx

namespace Cert.ReferenceIdeal.Bridge

open Cert.ReferenceIdeal Cert.ReferenceIdeal.Gen Cert.ReferenceIdeal.Read Cert.MsgMax

/-- The readout: mean over the nodes of each sample, the linear layer with its bias, the logistic. -/
def readout (nh : FVec Ideal S16x96x768 .f32) (Wm : FVec Ideal S768x768 .f32) (bias : FVec Ideal S768 .f32) :
    FVec Ideal S16x768 .f32 :=
  Host.divf (broadcastInDim S16x768 ![] bcast_S_S16x768 (constant (F := Ideal) S_ .f32 0x3F800000#32))
    (addf (broadcastInDim S16x768 ![] bcast_S_S16x768 (constant (F := Ideal) S_ .f32 0x3F800000#32))
      (Host.exp (Host.negf (addf
        (Host.dotGeneral dot_S16x768_S768x768_S16x768_1_0_0_1_n_n none
          (Host.divf (Host.reduceAdd nh (constant (F := Ideal) S_ .f32 0x00000000#32) reducesTo_S16x96x768_S16x768_d1 h_S_)
            (broadcastInDim S16x768 ![] bcast_S_S16x768 (constant (F := Ideal) S_ .f32 0x42C00000#32)))
          (transpose S768x768 [1, 0] Wm transposes_S768x768_S768x768_1_0))
        (broadcastInDim S16x768 ![0, 1] bcast_S1x768_S16x768_0_1 (broadcastInDim S1x768 ![1] bcast_S768_S1x768_1 bias))))))

variable (x0 : (⟨S16x96, .i32⟩ : BufTy).Contents (Elt Ideal)) (x1 : (⟨S4096x768, .f32⟩ : BufTy).Contents (Elt Ideal))
  (x2 : (⟨S100000x1, .f32⟩ : BufTy).Contents (Elt Ideal)) (x3 : (⟨S4096x4096, .i32⟩ : BufTy).Contents (Elt Ideal))
  (x4 : (⟨S1, .f32⟩ : BufTy).Contents (Elt Ideal)) (x5 : (⟨S768x768, .f32⟩ : BufTy).Contents (Elt Ideal))
  (x6 : (⟨S768, .f32⟩ : BufTy).Contents (Elt Ideal))

/-- The reference's result is the readout of its blended features. -/
theorem result_eq_readout :
    val_main_v64 (F := Ideal) x0 x1 x2 x3 x4 x5 x6 = readout (val_main_v50 (F := Ideal) x0 x1 x2 x3 x4) x5 x6 := rfl

theorem hred : S16x96x96x768.Reduces [(1 : Fin 4)] S16x96x768 := by decide

/-- The index lying over (b,j,d) at source `k` is (b,k,j,d). -/
theorem lift_eq (b : Fin 16) (j : Fin 96) (d : Fin 768) (k : Fin 96) : hred.lift (ix3 b j d) k = ix4 b k j d := by
  funext a
  apply Fin.ext
  show hred.liftVal (ix3 b j d) k.val a = (ix4 b k j d a).val
  match a with
  | ⟨0, _⟩ => rfl
  | ⟨1, _⟩ => rfl
  | ⟨2, _⟩ => rfl
  | ⟨3, _⟩ => rfl

/-- The spread product at (b,k,j,d) is the message from source `k` to destination `j`. -/
theorem product_apply (b : Fin 16) (k j : Fin 96) (d : Fin 768) :
    val_main_v40 (F := Ideal) x0 x1 x2 x3 (ix4 b k j d)
      = msg (val_main_v6 (F := Ideal) x0 x1) (val_main_v35 (F := Ideal) x0 x2 x3) b j d k := by
  have e1 : idx_main_v36 (idx_main_v38 (ix4 b k j d)) = ix3 b k d :=
    funext fun a => match a with | ⟨0, _⟩ => rfl | ⟨1, _⟩ => rfl | ⟨2, _⟩ => rfl
  have e2 : idx_main_v37 (idx_main_v39 (ix4 b k j d)) = ix3 b k j :=
    funext fun a => match a with | ⟨0, _⟩ => rfl | ⟨1, _⟩ => rfl | ⟨2, _⟩ => rfl
  rw [val_main_v40_apply, val_main_v38_apply, val_main_v36_apply, val_main_v39_apply, val_main_v37_apply, e1, e2]
  rfl

/-- The reference's maximum over the source axis is the aggregate. -/
theorem max_eq_aggregate (b : Fin 16) (j : Fin 96) (d : Fin 768) :
    val_main_v41 (F := Ideal) x0 x1 x2 x3 (ix3 b j d)
      = aggregate (val_main_v6 (F := Ideal) x0 x1) (val_main_v35 (F := Ideal) x0 x2 x3) (ix3 b j d) := by
  unfold val_main_v41
  refine (Host.reduce_eq_fold_single (FloatOps.maximumf (F := Ideal) (φ := .f32)) (val_main_v40 (F := Ideal) x0 x1 x2 x3) (val_main_cst (F := Ideal))
    reducesTo_S16x96x96x768_S16x96x768_d1 hred h_S_ (ix3 b j d)).trans ?_
  show (Finset.univ : Finset (Fin 96)).fold max (Ideal.ofBits .f32 0xFF800000#32)
    (val_main_v40 (F := Ideal) x0 x1 x2 x3 ∘ hred.lift (ix3 b j d)) = _
  rw [ofBits_ninf, aggregate_apply]
  refine congrArg (fun f => (Finset.univ : Finset (Fin 96)).fold max (⊥ : EReal) f) (funext fun (k : Fin 96) => ?_)
  exact (congrArg (val_main_v40 (F := Ideal) x0 x1 x2 x3) (lift_eq b j d k)).trans (product_apply x0 x1 x2 x3 b k j d)

/-- The reference's blended features are the blend of the gathered features with their aggregate. -/
theorem blend_eq :
    val_main_v50 (F := Ideal) x0 x1 x2 x3 x4
      = blend (x4 (ix1 0)) (val_main_v6 (F := Ideal) x0 x1)
          (aggregate (val_main_v6 (F := Ideal) x0 x1) (val_main_v35 (F := Ideal) x0 x2 x3)) := by
  funext i
  obtain ⟨b, j, d, rfl⟩ : ∃ (b : Fin 16) (j : Fin 96) (d : Fin 768), i = ix3 b j d := ⟨i 0, i 1, i 2, eq_ix3 i⟩
  have e1 : idx_main_v42 (idx_main_v43 (ix3 b j d)) = ix1 0 := funext fun a => match a with | ⟨0, _⟩ => rfl
  have e2 : idx_main_v47 (idx_main_v48 (ix3 b j d)) = ix1 0 := funext fun a => match a with | ⟨0, _⟩ => rfl
  rw [val_main_v50_apply, val_main_v44_apply, val_main_v49_apply, val_main_v43_apply, val_main_v42_apply,
    val_main_v48_apply, val_main_v47_apply, val_main_v46_apply, val_main_v45_apply, val_main_cst_8_apply, e1, e2,
    max_eq_aggregate]
  rfl

end Cert.ReferenceIdeal.Bridge

end
-- ==== Proof.KernelRun.lean ====
/-
  The kernel program's run, read. Before the region the host gathers the node features `H` and the edge weights `W` —
  operation for operation what the reference does, so the two gathered arrays are the reference's own stages of the same
  arguments. The region leaves the aggregate of `H` and `W` in its output array. After the region the host blends,
  `η · H + (1 - η) · aggregate` with `η` the one-element argument recast as a scalar, and applies the readout.
-/
import proofs.«141505_j7052336300299_1_alg».proof.Proof.Slabs
import proofs.«141505_j7052336300299_1_alg».proof.Proof.RefSide
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Run

open Cert.KernelIdeal Cert.KernelIdeal.Gen Cert.MsgMax Cert.KernelIdeal.Accum
open Cert.ReferenceIdeal.Bridge (readout)

/-- The host's blend after the region, with `η` recast from a one-element array to a scalar and spread. -/
def hostBlend (η : FVec Ideal S1 .f32) (H A : FVec Ideal S16x96x768 .f32) : FVec Ideal S16x96x768 .f32 :=
  addf (mulf (broadcastInDim S16x96x768 ![] bcast_S_S16x96x768 (shapeCast S_ η shapeCasts_S1_S_)) H)
    (mulf (broadcastInDim S16x96x768 ![] bcast_S_S16x96x768
      (subf (constant (F := Ideal) S_ .f32 0x3F800000#32) (shapeCast S_ η shapeCasts_S1_S_))) A)

/-- Entry by entry it is the blend with weight `η 0`. -/
theorem hostBlend_eq (η : FVec Ideal S1 .f32) (H A : FVec Ideal S16x96x768 .f32) :
    hostBlend η H A = blend (η (ix1 0)) H A := by
  funext i
  have hb : ∀ y : FVec Ideal S_ .f32, broadcastInDim S16x96x768 ![] bcast_S_S16x96x768 y i = y ix0 :=
    fun y => broadcastInDim_apply _ bcast_S_S16x96x768 y i ix0 (fun a => a.elim0)
  have hc : shapeCast S_ η shapeCasts_S1_S_ ix0 = η (ix1 0) :=
    shapeCast_apply η shapeCasts_S1_S_ ix0 (ix1 0) (by
      have h1 : (S1.rowMajor (ix1 0)).val < 1 := (S1.rowMajor (ix1 0)).isLt
      have h2 : (S_.rowMajor ix0).val < 1 := (S_.rowMajor ix0).isLt
      omega)
  show broadcastInDim S16x96x768 ![] bcast_S_S16x96x768 (shapeCast S_ η shapeCasts_S1_S_) i * H i
    + broadcastInDim S16x96x768 ![] bcast_S_S16x96x768
        (subf (constant (F := Ideal) S_ .f32 0x3F800000#32) (shapeCast S_ η shapeCasts_S1_S_)) i * A i = _
  rw [hb, hb]
  show shapeCast S_ η shapeCasts_S1_S_ ix0 * H i
    + (Ideal.ofBits .f32 0x3F800000#32 - shapeCast S_ η shapeCasts_S1_S_ ix0) * A i = _
  rw [hc]
  rfl

/-- The host operations after the region, over any contents of the buffers they read. -/
theorem tail_of (Wv : Valuation τ sig (Elt Ideal)) (η : FVec Ideal S1 .f32) (H A : FVec Ideal S16x96x768 .f32)
    (Wm : FVec Ideal S768x768 .f32) (bias : FVec Ideal S768 .f32)
    (h4 : Wv (Proc.devRef .tc main_arg4) = η) (h6 : Wv (Proc.devRef .tc main_v6) = H)
    (h36 : Wv (Proc.devRef .tc main_v36) = A) (h5 : Wv (Proc.devRef .tc main_arg5) = Wm)
    (h6b : Wv (Proc.devRef .tc main_arg6) = bias) :
    StableHlo.after hostOps1 Wv (Proc.devRef .tc main_v57) = readout (hostBlend η H A) Wm bias := by
  subst h4 h6 h36 h5 h6b
  after_results_simp
  rfl

variable (m : (ℓ : Loc nD τ sig) → Buf (Elt Ideal) ℓ) (ρ : Dev nD → PrngReg)

/-- The gathered features are the reference's stage of the same arguments. -/
theorem feat_eq (c : Dev nD) :
    feat m c = Cert.ReferenceIdeal.Read.val_main_v6 (F := Ideal) (m ((c : Thread nD τ).loc main_arg0))
      (m ((c : Thread nD τ).loc main_arg1)) := by
  show StableHlo.after hostOps0 (fun b => m (c, b)) (Proc.devRef .tc main_v6) = _
  after_results
  rfl

open Idealize.ShloMosaic.StableHlo in
set_option maxHeartbeats 8000000 in
/-- The gathered edge weights are the reference's stage of the same arguments: thirty-six host operations (index
    wrap-around by compare, add and select; the pair of index columns joined; the two gathers), the same on both sides.
    The operands of the two joins are read out one operation at a time. -/
theorem wts_eq (c : Dev nD) :
    wts m c = Cert.ReferenceIdeal.Read.val_main_v35 (F := Ideal) (m ((c : Thread nD τ).loc main_arg0))
      (m ((c : Thread nD τ).loc main_arg2)) (m ((c : Thread nD τ).loc main_arg3)) := by
  show StableHlo.after hostOps0 (fun b => m (c, b)) (Proc.devRef .tc main_v35) = _
  after_results_simp
  repeat (first
    | rw [nullary_result] | rw [unary_result] | rw [binary_result] | rw [ternary_result]
    | (rw [nullary_result_ne]; rotate_left; decide) | (rw [unary_result_ne]; rotate_left; decide)
    | (rw [binary_result_ne]; rotate_left; decide) | (rw [ternary_result_ne]; rotate_left; decide))
  unfold Cert.ReferenceIdeal.Read.val_main_v35
    Cert.ReferenceIdeal.Read.val_main_v34
    Cert.ReferenceIdeal.Read.val_main_v33
    Cert.ReferenceIdeal.Read.val_main_v32
    Cert.ReferenceIdeal.Read.val_main_v31
    Cert.ReferenceIdeal.Read.val_main_v30
    Cert.ReferenceIdeal.Read.val_main_c_7
    Cert.ReferenceIdeal.Read.val_main_v29
    Cert.ReferenceIdeal.Read.val_main_v28
    Cert.ReferenceIdeal.Read.val_main_v27
    Cert.ReferenceIdeal.Read.val_main_c_6
    Cert.ReferenceIdeal.Read.val_main_v26
    Cert.ReferenceIdeal.Read.val_main_v25
    Cert.ReferenceIdeal.Read.val_main_c_5
    Cert.ReferenceIdeal.Read.val_main_v24
    Cert.ReferenceIdeal.Read.val_main_v23
    Cert.ReferenceIdeal.Read.val_main_v22
    Cert.ReferenceIdeal.Read.val_main_v21
    Cert.ReferenceIdeal.Read.val_main_v20
    Cert.ReferenceIdeal.Read.val_main_v19
    Cert.ReferenceIdeal.Read.val_main_v18
    Cert.ReferenceIdeal.Read.val_main_v17
    Cert.ReferenceIdeal.Read.val_main_v16
    Cert.ReferenceIdeal.Read.val_main_c_4
    Cert.ReferenceIdeal.Read.val_main_v15
    Cert.ReferenceIdeal.Read.val_main_v14
    Cert.ReferenceIdeal.Read.val_main_c_3
    Cert.ReferenceIdeal.Read.val_main_v13
    Cert.ReferenceIdeal.Read.val_main_v12
    Cert.ReferenceIdeal.Read.val_main_v11
    Cert.ReferenceIdeal.Read.val_main_c_2
    Cert.ReferenceIdeal.Read.val_main_v10
    Cert.ReferenceIdeal.Read.val_main_v9
    Cert.ReferenceIdeal.Read.val_main_c_1
    Cert.ReferenceIdeal.Read.val_main_v8
    Cert.ReferenceIdeal.Read.val_main_v7
  rfl

/-- The result array as one function of the arguments. -/
def result (c : Dev nD) : Buf (Elt Ideal) ((c : Thread nD τ).loc main_v57) :=
  readout (blend (m ((c : Thread nD τ).loc main_arg4) (ix1 0)) (feat m c) (aggregate (feat m c) (wts m c)))
    (m ((c : Thread nD τ).loc main_arg5)) (m ((c : Thread nD τ).loc main_arg6))

/-- What the operations after the region leave in the result buffer. -/
theorem tail_eq (c : Dev nD) :
    Pipeline.afterTail₀ cfgs (dats m) 0 (V0 m) [hostOps1] c main_v57 = result m c := by
  unfold Pipeline.afterTail₀
  show StableHlo.after hostOps1 _ (Proc.devRef .tc main_v57) = _
  refine (tail_of (Pipeline.withArrays spec0 c (V0 m c) fun w => (dats m 0 c).arrAt w cfg0.N)
    (m ((c : Thread nD τ).loc main_arg4)) (feat m c) (aggregate (feat m c) (wts m c))
    (m ((c : Thread nD τ).loc main_arg5)) (m ((c : Thread nD τ).loc main_arg6)) ?_ ?_ ?_ ?_ ?_).trans ?_
  · exact (Pipeline.withArrays_of_ne _ c (V0 m c) _ main_arg4 (by decide : ∀ w, Pipeline.arrRef spec0 w ≠ main_arg4)).trans
      (V_main_arg4 m c)
  · exact (Pipeline.withArrays_arr spec0 launch0.win.arr_inj c _ _ 0).trans
      (((dats m 0 c).arrAt_in 0 rfl _).trans (A_eq m c 0))
  · exact (Pipeline.withArrays_arr spec0 launch0.win.arr_inj c _ _ 2).trans (Slabs.final m c)
  · exact (Pipeline.withArrays_of_ne _ c (V0 m c) _ main_arg5 (by decide : ∀ w, Pipeline.arrRef spec0 w ≠ main_arg5)).trans
      (V_main_arg5 m c)
  · exact (Pipeline.withArrays_of_ne _ c (V0 m c) _ main_arg6 (by decide : ∀ w, Pipeline.arrRef spec0 w ≠ main_arg6)).trans
      (V_main_arg6 m c)
  · unfold result
    rw [hostBlend_eq]

/-- THE RUN: every weakly fair execution of the kernel program terminates with the result array at `result` and the
    arguments unchanged. -/
theorem run : θ_run defs (onTc (τ := τ) (main (F := Ideal))) ⟨m, fun _ => 0, ρ⟩ fun r => ∀ c : Dev nD,
      r.2.mem ((c.tc : Thread nD τ).loc main_v57) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v57 (Pipeline.mem_restRefs_of main_v57 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Run

end
-- ==== Proof.lean ====
/- The proof of `Cert.Claim` (proofs.«141505_j7052336300299_1_alg».proof.Defs).

   Both programs gather node features `H` [16,96,768] and edge weights `W` [16,96,96] by the same host operations,
   aggregate, for every (sample b, destination j, feature d), the messages `H(b,i,d) · W(b,i,j)` of the 96 sources `i`
   by their maximum from -∞, blend `η · H + (1 - η) · aggregate`, and apply one readout (mean over nodes, linear
   layer, logistic). The reference takes the maximum in one reduction over the source axis. The kernel walks a
   16 × 6 grid: at point 6 b + s it joins a scratch block with the maximum over the 16 sources of chunk `s` of
   sample `b`, the scratch filled with -∞ at `s = 0` and copied out at `s = 5`. Over the extended reals the maximum is
   associative, commutative and has -∞ as its unit, so six accumulated chunk maxima are the maximum over all 96
   sources (Proof/MaxChunks.lean); no finiteness of the inputs is used.

   Proof/Spec.lean states the aggregate and the blend; Proof/Pieces.lean, Proof/Payload.lean, Proof/Accum.lean and
   Proof/Slabs.lean read the kernel's output array off its frame run (what one body run stores, the body's arithmetic
   at an entry, the invariant of the scratch over the grid, the slabs tiling the array); Proof/KernelRun.lean adds the
   host operations around the region; Proof/RefSide.lean reads the reference's run. The three frames are the generated
   frame runs; the idealization rewrote nothing, so `preserves` is `True`. -/
import proofs.«141505_j7052336300299_1_alg».proof.Defs
import proofs.«141505_j7052336300299_1_alg».proof.Proof.Gen.Kernel
import proofs.«141505_j7052336300299_1_alg».proof.Proof.Gen.Kernel.Skeleton
import proofs.«141505_j7052336300299_1_alg».proof.Proof.Gen.Kernel.Launch
import proofs.«141505_j7052336300299_1_alg».proof.Proof.Gen.Kernel.Points
import proofs.«141505_j7052336300299_1_alg».proof.Proof.Gen.Kernel.Frame
import proofs.«141505_j7052336300299_1_alg».proof.Proof.Gen.KernelIdeal
import proofs.«141505_j7052336300299_1_alg».proof.Proof.Gen.KernelIdeal.Skeleton
import proofs.«141505_j7052336300299_1_alg».proof.Proof.Gen.KernelIdeal.Launch
import proofs.«141505_j7052336300299_1_alg».proof.Proof.Gen.KernelIdeal.Points
import proofs.«141505_j7052336300299_1_alg».proof.Proof.Gen.KernelIdeal.Frame
import proofs.«141505_j7052336300299_1_alg».proof.Proof.Gen.ReferenceIdeal
import proofs.«141505_j7052336300299_1_alg».proof.Proof.Gen.Pre_finite_inputs
import proofs.«141505_j7052336300299_1_alg».proof.Proof.Gen.ReferenceIdeal.Run
import proofs.«141505_j7052336300299_1_alg».proof.Proof.Gen.ReferenceIdeal.Read
import proofs.«141505_j7052336300299_1_alg».proof.Proof.KernelRun
import proofs.«141505_j7052336300299_1_alg».proof.Proof.RefSide
import Idealize.ShloMosaic.Adequacy
import Idealize.ShloMosaic.Init

noncomputable section

namespace Cert.Proof

open Idealize.ShloMosaic Idealize.SL.Sem

/-- The word-level kernel program runs and keeps its arguments: the generated frame run. -/
theorem frame_k : Cert.frame_Kernel := fun m ρ _ => Cert.Kernel.Gen.frame m ρ

/-- The idealized kernel program runs and keeps its arguments: the generated frame run. -/
theorem frame_ki : Cert.frame_KernelIdeal := fun m ρ _ => Cert.KernelIdeal.Gen.frame m ρ

/-- The reference runs and keeps its arguments: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the readout of `η · H + (1 - η) · aggregate H W` of arguments that agree. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v64 m' c = Cert.KernelIdeal.Run.result m c
  obtain ⟨a0, a1, a2, a3, a4, a5, a6⟩ := hagree c
  rw [Cert.ReferenceIdeal.Read.val_main_v64_eq, Cert.ReferenceIdeal.Bridge.result_eq_readout,
    Cert.ReferenceIdeal.Bridge.blend_eq, a0, a1, a2, a3, a4, a5, a6]
  unfold Cert.KernelIdeal.Run.result
  rw [Cert.KernelIdeal.Run.feat_eq, Cert.KernelIdeal.Run.wts_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
